-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 103
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000, .f32⟩
  | .hbm, ⟨55, _⟩ => ⟨S1700000, .f32⟩
  | .hbm, ⟨56, _⟩ => ⟨S100000x128, .f32⟩
  | .hbm, ⟨57, _⟩ => ⟨S100000x128, .bf16⟩
  | .hbm, ⟨58, _⟩ => ⟨S_, .i32⟩
  | .hbm, ⟨59, _⟩ => ⟨S1700000, .i32⟩
  | .hbm, ⟨60, _⟩ => ⟨S1700000, .i1⟩
  | .hbm, ⟨61, _⟩ => ⟨S_, .i32⟩
  | .hbm, ⟨62, _⟩ => ⟨S1700000, .i32⟩
  | .hbm, ⟨63, _⟩ => ⟨S1700000, .i32⟩
  | .hbm, ⟨64, _⟩ => ⟨S1700000, .i32⟩
  | .hbm, ⟨65, _⟩ => ⟨S1700000x1, .i32⟩
  | .hbm, ⟨66, _⟩ => ⟨S1700000x128, .bf16⟩
  | .hbm, ⟨67, _⟩ => ⟨S1700000x128, .f32⟩
  | .hbm, ⟨68, _⟩ => ⟨S1700000x1, .f32⟩
  | .hbm, ⟨69, _⟩ => ⟨S1700000x128, .f32⟩
  | .hbm, ⟨70, _⟩ => ⟨S1700000x128, .f32⟩
  | .hbm, ⟨71, _⟩ => ⟨S_, .f32⟩
  | .hbm, ⟨72, _⟩ => ⟨S100000x128, .f32⟩
  | .hbm, ⟨73, _⟩ => ⟨S1700000x1, .i32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S100000x128, .f32⟩
  | .hbm, ⟨80, _⟩ => ⟨S100000x128, .f32⟩
  | .hbm, ⟨81, _⟩ => ⟨S100000x64, .f32⟩
  | .hbm, ⟨82, _⟩ => ⟨S100000x64, .bf16⟩
  | .hbm, ⟨83, _⟩ => ⟨S_, .i32⟩
  | .hbm, ⟨84, _⟩ => ⟨S1700000, .i32⟩
  | .hbm, ⟨85, _⟩ => ⟨S1700000, .i1⟩
  | .hbm, ⟨86, _⟩ => ⟨S_, .i32⟩
  | .hbm, ⟨87, _⟩ => ⟨S1700000, .i32⟩
  | .hbm, ⟨88, _⟩ => ⟨S1700000, .i32⟩
  | .hbm, ⟨89, _⟩ => ⟨S1700000, .i32⟩
  | .hbm, ⟨90, _⟩ => ⟨S1700000x1, .i32⟩
  | .hbm, ⟨91, _⟩ => ⟨S1700000x64, .bf16⟩
  | .hbm, ⟨92, _⟩ => ⟨S1700000x64, .f32⟩
  | .hbm, ⟨93, _⟩ => ⟨S1700000x1, .f32⟩
  | .hbm, ⟨94, _⟩ => ⟨S1700000x64, .f32⟩
  | .hbm, ⟨95, _⟩ => ⟨S1700000x64, .f32⟩
  | .hbm, ⟨96, _⟩ => ⟨S_, .f32⟩
  | .hbm, ⟨97, _⟩ => ⟨S100000x64, .f32⟩
  | .hbm, ⟨98, _⟩ => ⟨S1700000x1, .i32⟩
  | .hbm, ⟨99, _⟩ => ⟨S100000x64, .f32⟩
  | .hbm, ⟨100, _⟩ => ⟨S1x64, .f32⟩
  | .hbm, ⟨101, _⟩ => ⟨S100000x64, .f32⟩
  | .hbm, ⟨102, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x64, .f32⟩
  | .local _ .vmem, ⟨8, _⟩ => ⟨S10000x64, .f32⟩
  | .local _ .vmem, ⟨9, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_c_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_call2_cst : Ref sig .tc := ⟨.hbm, 78, rfl⟩
abbrev main_call2_v0 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_11 : Ref sig .tc := ⟨.hbm, 83, rfl⟩
abbrev main_v57 : Ref sig .tc := ⟨.hbm, 84, rfl⟩
abbrev main_v58 : Ref sig .tc := ⟨.hbm, 85, rfl⟩
abbrev main_c_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_13 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v54) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 138
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x64, .f32⟩
  | 6 => ⟨S64, .f32⟩
  | 7 => ⟨S100000, .i32⟩
  | 8 => ⟨S1x1600000, .i32⟩
  | 9 => ⟨S1600000, .i32⟩
  | 10 => ⟨S1700000, .i32⟩
  | 11 => ⟨S1x1600000, .i32⟩
  | 12 => ⟨S1600000, .i32⟩
  | 13 => ⟨S1700000, .i32⟩
  | 14 => ⟨S_, .f32⟩
  | 15 => ⟨S100000, .f32⟩
  | 16 => ⟨S1700000, .f32⟩
  | 17 => ⟨S100000x128, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .i1⟩
  | 28 => ⟨S_, .f32⟩
  | 29 => ⟨S_, .f32⟩
  | 30 => ⟨S100000, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x128, .f32⟩
  | 66 => ⟨S1700000x1, .f32⟩
  | 67 => ⟨S1700000x128, .f32⟩
  | 68 => ⟨S1700000x128, .f32⟩
  | 69 => ⟨S_, .f32⟩
  | 70 => ⟨S100000x128, .f32⟩
  | 71 => ⟨S1700000x1, .i32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S100000x64, .f32⟩
  | 80 => ⟨S_, .f32⟩
  | 81 => ⟨S100000, .f32⟩
  | 82 => ⟨S1700000x1, .i32⟩
  | 83 => ⟨S100000, .f32⟩
  | 84 => ⟨S_, .f32⟩
  | 85 => ⟨S100000, .f32⟩
  | 86 => ⟨S100000, .i1⟩
  | 87 => ⟨S_, .f32⟩
  | 88 => ⟨S100000, .f32⟩
  | 89 => ⟨S100000, .i1⟩
  | 90 => ⟨S_, .f32⟩
  | 91 => ⟨S_, .f32⟩
  | 92 => ⟨S100000, .f32⟩
  | 93 => ⟨S100000, .f32⟩
  | 94 => ⟨S100000, .f32⟩
  | 95 => ⟨S_, .f32⟩
  | 96 => ⟨S_, .f32⟩
  | 97 => ⟨S100000, .f32⟩
  | 98 => ⟨S100000, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000, .f32⟩
  | 108 => ⟨S1700000, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000, .f32⟩
  | 118 => ⟨S1700000, .f32⟩
  | 119 => ⟨S_, .i32⟩
  | 120 => ⟨S1700000, .i32⟩
  | 121 => ⟨S1700000, .i1⟩
  | 122 => ⟨S_, .i32⟩
  | 123 => ⟨S1700000, .i32⟩
  | 124 => ⟨S1700000, .i32⟩
  | 125 => ⟨S1700000, .i32⟩
  | 126 => ⟨S1700000x1, .i32⟩
  | 127 => ⟨S1700000x64, .f32⟩
  | _ => ⟨S100000x128, .f32⟩

abbrev hbmTy0_1 (i : Nat) : BufTy := match i % 128 with
  | 0 => ⟨S1700000x1, .f32⟩
  | 1 => ⟨S1700000x64, .f32⟩
  | 2 => ⟨S1700000x64, .f32⟩
  | 3 => ⟨S_, .f32⟩
  | 4 => ⟨S100000x64, .f32⟩
  | 5 => ⟨S1700000x1, .i32⟩
  | 6 => ⟨S100000x64, .f32⟩
  | 7 => ⟨S1x64, .f32⟩
  | 8 => ⟨S100000x64, .f32⟩
  | 9 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call2_cst : Ref sig .tc := ⟨.hbm, 76, rfl⟩
abbrev main_call2_v0 : Ref sig .tc := ⟨.hbm, 77, rfl⟩
abbrev main_v52 : Ref sig .tc := ⟨.hbm, 78, rfl⟩
abbrev main_v53 : Ref sig .tc := ⟨.hbm, 79, rfl⟩
abbrev main_cst_11 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_12 : Ref sig .tc := ⟨.hbm, 84, rfl⟩
abbrev main_v57 : Ref sig .tc := ⟨.hbm, 85, rfl⟩
abbrev main_v58 : Ref sig .tc := ⟨.hbm, 86, rfl⟩
abbrev main_cst_13 : Ref sig .tc := ⟨.hbm, 87, rfl⟩
abbrev main_v59 : Ref sig .tc := ⟨.hbm, 88, rfl⟩
abbrev main_v60 : Ref sig .tc := ⟨.hbm, 89, rfl⟩
abbrev main_cst_14 : Ref sig .tc := ⟨.hbm, 90, rfl⟩
abbrev main_call3_v0 : Ref sig .tc := ⟨.hbm, 91, rfl⟩
abbrev main_call3_v1 : Ref sig .tc := ⟨.hbm, 92, rfl⟩
abbrev main_v61 : Ref sig .tc := ⟨.hbm, 93, rfl⟩
abbrev main_v62 : Ref sig .tc := ⟨.hbm, 94, rfl⟩
abbrev main_cst_15 : Ref sig .tc := ⟨.hbm, 95, rfl⟩
abbrev main_call4_v0 : Ref sig .tc := ⟨.hbm, 96, rfl⟩
abbrev main_call4_v1 : Ref sig .tc := ⟨.hbm, 97, rfl⟩
abbrev main_v63 : Ref sig .tc := ⟨.hbm, 98, rfl⟩
abbrev main_c_16 : Ref sig .tc := ⟨.hbm, 99, rfl⟩
abbrev main_v64 : Ref sig .tc := ⟨.hbm, 100, rfl⟩
abbrev main_v65 : Ref sig .tc := ⟨.hbm, 101, rfl⟩
abbrev main_c_17 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_c_18 : Ref sig .tc := ⟨.hbm, 109, rfl⟩
abbrev main_v72 : Ref sig .tc := ⟨.hbm, 110, rfl⟩
abbrev main_v73 : Ref sig .tc := ⟨.hbm, 111, rfl⟩
abbrev main_c_19 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_c_20 : Ref sig .tc := ⟨.hbm, 119, rfl⟩
abbrev main_v80 : Ref sig .tc := ⟨.hbm, 120, rfl⟩
abbrev main_v81 : Ref sig .tc := ⟨.hbm, 121, rfl⟩
abbrev main_c_21 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_22 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run with its result named.

  The program is two matrix-product regions among stretches of host operations. Its generated frame walks the
  program's segments from the launch and ends with every unscoped buffer at the last boundary's contents — the fold of
  the stretches and of the two regions' write-backs over the launch memory — and then keeps only the argument arrays.
  Read here is one buffer more: the result array, at that same fold.
-/
import proofs.«149829_j77644418777510_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and the argument arrays as launched. -/
theorem run : θ_run defs (onTc (τ := τ) (main (F := F))) ⟨m, fun _ => 0, ρ⟩ (fun r => ∀ c : Dev nD,
      r.2.mem ((c.tc : Thread nD τ).loc main_v73) = W10 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v73 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.KernelIdeal.Whole

end
-- ==== Proof.Chain.lean ====
/-
  The reference's result, in named pieces.

  The reference is two graph-convolution layers over one graph. Named here, in the reference's own operations: the
  edge list with a self loop appended per node (`src`, `dst`, the weights `ew1` with weight one on the loops), an id
  vector as a column of row indices with negative ids wrapped by the node count (`wrapCol`), the weighted in-degree
  (`deg`), its guarded reciprocal square root (`dis`), the symmetric normaliser of every edge (`norm`), and what a
  layer does with the transformed features `h`: gather the source rows, scale each by its edge's normaliser, add them
  up per destination node, add the bias (`layer1`, which also rectifies, and `layer2`). The reference's result term is
  the second layer of the product of the first layer of the product of the features with the first weight matrix, with
  the second weight matrix (`res_eq`): the term is these definitions unfolded, nothing else.
-/
import proofs.«149829_j77644418777510_2_alg».proof.Proof.Gen.ReferenceIdeal.Run

set_option maxRecDepth 16384

noncomputable section

namespace Cert.ReferenceIdeal.Chain

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- The edges' source ids, then every node's own id. -/
def src (ei : IVec S2x1600000 32) : IVec S1700000 32 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The edges' destination ids, then every node's own id. -/
def dst (ei : IVec S2x1600000 32) : IVec S1700000 32 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- The edges' weights, then weight one for every self loop. -/
def ew1 (ew : FVec F S1600000 .f32) : FVec F S1700000 .f32 :=
  concatenate S1700000 0 [⟨S1600000, ew⟩, ⟨S100000, (broadcastInDim S100000 ![] bcast_S_S100000 (constant S_ .f32 0x3F800000#32))⟩] concatenates_S1600000_S100000_S1700000_d0

/-- An id vector as a column of row indices, a negative id wrapped by the node count. -/
def wrapCol (ids : IVec S1700000 32) : IVec S1700000x1 32 :=
  broadcastInDim S1700000x1 ![0] bcast_S1700000_S1700000x1_0 (select (cmpi .slt ids (broadcastInDim S1700000 ![] bcast_S_S1700000 (constantI S_ 32 0#32))) (addi ids (broadcastInDim S1700000 ![] bcast_S_S1700000 (constantI S_ 32 100000#32))) ids)

/-- The weighted in-degree of every node. -/
def deg (ei : IVec S2x1600000 32) (ew : FVec F S1600000 .f32) : FVec F S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 (dst ei)) (ew1 ew)

/-- The reciprocal square root of the degree where it is positive, zero elsewhere. -/
def dis (ei : IVec S2x1600000 32) (ew : FVec F S1600000 .f32) : FVec F S100000 .f32 :=
  select (cmpf .ogt (deg ei ew) (broadcastInDim S100000 ![] bcast_S_S100000 (constant S_ .f32 0x00000000#32))) (Host.rsqrt (select (cmpf .ogt (deg ei ew) (broadcastInDim S100000 ![] bcast_S_S100000 (constant S_ .f32 0x00000000#32))) (deg ei ew) (broadcastInDim S100000 ![] bcast_S_S100000 (id (constant S_ .f32 0x3F800000#32))))) (broadcastInDim S100000 ![] bcast_S_S100000 (id (constant S_ .f32 0x00000000#32)))

/-- Every edge's symmetric normaliser: its weight between the two endpoints' factors. -/
def norm (ei : IVec S2x1600000 32) (ew : FVec F S1600000 .f32) : FVec F S1700000 .f32 :=
  mulf (mulf (Host.gather gather_S100000_S1700000x1_S1700000_n_0_n_n_0_1_1 (dis ei ew) (wrapCol (src ei))) (ew1 ew)) (Host.gather gather_S100000_S1700000x1_S1700000_n_0_n_n_0_1_1 (dis ei ew) (wrapCol (dst ei)))

/-- The first layer after its dense product `h`: messages gathered, scaled, summed per destination; bias; rectifier. -/
def layer1 (h : FVec F S100000x128 .f32) (ei : IVec S2x1600000 32) (ew : FVec F S1600000 .f32) (b1 : FVec F S128 .f32) :
    FVec F S100000x128 .f32 :=
  maximumf (addf (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (dst ei)) (mulf (Host.gather gather_S100000x128_S1700000x1_S1700000x128_1_0_n_n_0_1_1128 h (wrapCol (src ei))) (broadcastInDim S1700000x128 ![0, 1] bcast_S1700000x1_S1700000x128_0_1 (broadcastInDim S1700000x1 ![0] bcast_S1700000_S1700000x1_0 (norm ei ew))))) (broadcastInDim S100000x128 ![0, 1] bcast_S1x128_S100000x128_0_1 (broadcastInDim S1x128 ![1] bcast_S128_S1x128_1 b1))) (broadcastInDim S100000x128 ![] bcast_S_S100000x128 (constant S_ .f32 0x00000000#32))

/-- The second layer after its dense product `h`: messages gathered, scaled, summed per destination; bias. -/
def layer2 (h : FVec F S100000x64 .f32) (ei : IVec S2x1600000 32) (ew : FVec F S1600000 .f32) (b2 : FVec F S64 .f32) :
    FVec F S100000x64 .f32 :=
  addf (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 (dst ei)) (mulf (Host.gather gather_S100000x64_S1700000x1_S1700000x64_1_0_n_n_0_1_164 h (wrapCol (src ei))) (broadcastInDim S1700000x64 ![0, 1] bcast_S1700000x1_S1700000x64_0_1 (broadcastInDim S1700000x1 ![0] bcast_S1700000_S1700000x1_0 (norm ei ew))))) (broadcastInDim S100000x64 ![0, 1] bcast_S1x64_S100000x64_0_1 (broadcastInDim S1x64 ![1] bcast_S64_S1x64_1 b2))

/-- The reference's result term is the two layers over the two dense products. -/
theorem res_eq (m : (ℓ : Loc nD τ sig) → Buf (Elt F) ℓ) (c : Dev nD) :
    res_main_v95 m c
      = layer2 (Host.dotGeneral dot_S100000x128_S128x64_S100000x64_1_0_0_1_n_n none
          (layer1 (Host.dotGeneral dot_S100000x128_S128x128_S100000x128_1_0_0_1_n_n none
              (m ((c.tc : Thread nD τ).loc main_arg0)) (m ((c.tc : Thread nD τ).loc main_arg3)))
            (m ((c.tc : Thread nD τ).loc main_arg1)) (m ((c.tc : Thread nD τ).loc main_arg2)) (m ((c.tc : Thread nD τ).loc main_arg4)))
          (m ((c.tc : Thread nD τ).loc main_arg5)))
        (m ((c.tc : Thread nD τ).loc main_arg1)) (m ((c.tc : Thread nD τ).loc main_arg2)) (m ((c.tc : Thread nD τ).loc main_arg6)) := by
  unfold res_main_v95 layer2 layer1 norm dis deg wrapCol ew1 src dst
  rfl

end Cert.ReferenceIdeal.Chain

end
-- ==== Proof.Prologue.lean ====
/-
  The idealized kernel's host prologue, read back.

  Before the first matrix-product region the program computes, on the host, the edge list with self loops and every
  edge's symmetric normaliser — the same operations the reference applies. Each stretch of host operations is read
  here as a function of the buffer contents it is entered with (any contents `X`): first the stretch that builds the
  edge list, the weights and the degree, then the stretches that turn the degree into the normaliser (two of them the
  inlined bodies of a `where`). Composed from the launch memory they give, at the first region's entry, the source ids,
  the destination ids and the normaliser as the reference's named terms of the launch contents, and the argument arrays
  as launched.
-/
import proofs.«149829_j77644418777510_2_alg».proof.Proof.Gen.KernelIdeal.Frame
import proofs.«149829_j77644418777510_2_alg».proof.Proof.Chain
import Idealize.ShloMosaic.Lib.StableHlo.Run
import Idealize.ShloMosaic.PureOps.Ideal

set_option maxRecDepth 16384

noncomputable section

namespace Cert.KernelIdeal.Prologue

open Idealize.ShloMosaic Idealize.ShloMosaic.TcCoe Idealize.SL.Sem Idealize.ShloMosaic.StableHlo
open Cert.KernelIdeal Cert.KernelIdeal.Gen

/-- The rewriting loop of `after_results` without its opening simp pass: for the folds a simp pass leaves under a
    concatenation's list of pieces. -/
macro "results_under_pairs" : tactic =>
  `(tactic| (repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))))

section Stretches

variable (X : Valuation τ sig (Elt Ideal))

/-! ## The first stretch: edge list, weights, degree -/

theorem first_src : StableHlo.after hostOps0 X (Proc.devRef .tc main_v3) = Cert.ReferenceIdeal.Chain.src (X (Proc.devRef .tc main_arg1)) := by
  after_results_simp
  results_under_pairs
  unfold Cert.ReferenceIdeal.Chain.src
  rfl

theorem first_dst : StableHlo.after hostOps0 X (Proc.devRef .tc main_v6) = Cert.ReferenceIdeal.Chain.dst (X (Proc.devRef .tc main_arg1)) := by
  after_results_simp
  results_under_pairs
  unfold Cert.ReferenceIdeal.Chain.dst
  rfl

theorem first_ew : StableHlo.after hostOps0 X (Proc.devRef .tc main_v8) = Cert.ReferenceIdeal.Chain.ew1 (F := Ideal) (X (Proc.devRef .tc main_arg2)) := by
  after_results_simp
  results_under_pairs
  unfold Cert.ReferenceIdeal.Chain.ew1
  rfl

theorem first_deg :
    StableHlo.after hostOps0 X (Proc.devRef .tc main_v11) = Cert.ReferenceIdeal.Chain.deg (F := Ideal) (X (Proc.devRef .tc main_arg1)) (X (Proc.devRef .tc main_arg2)) := by
  after_results_simp
  results_under_pairs
  unfold Cert.ReferenceIdeal.Chain.deg Cert.ReferenceIdeal.Chain.ew1 Cert.ReferenceIdeal.Chain.dst
  rfl

/-- Where the degree is positive (computed twice by the program, once per `where`). -/
theorem first_pos13 :
    StableHlo.after hostOps0 X (Proc.devRef .tc main_v13)
      = cmpf .ogt (Cert.ReferenceIdeal.Chain.deg (F := Ideal) (X (Proc.devRef .tc main_arg1)) (X (Proc.devRef .tc main_arg2)))
          (broadcastInDim S100000 ![] bcast_S_S100000 (constant S_ .f32 0x00000000#32)) := by
  after_results_simp
  results_under_pairs
  unfold Cert.ReferenceIdeal.Chain.deg Cert.ReferenceIdeal.Chain.ew1 Cert.ReferenceIdeal.Chain.dst
  rfl

theorem first_pos15 :
    StableHlo.after hostOps0 X (Proc.devRef .tc main_v15)
      = cmpf .ogt (Cert.ReferenceIdeal.Chain.deg (F := Ideal) (X (Proc.devRef .tc main_arg1)) (X (Proc.devRef .tc main_arg2)))
          (broadcastInDim S100000 ![] bcast_S_S100000 (constant S_ .f32 0x00000000#32)) := by
  after_results_simp
  results_under_pairs
  unfold Cert.ReferenceIdeal.Chain.deg Cert.ReferenceIdeal.Chain.ew1 Cert.ReferenceIdeal.Chain.dst
  rfl

theorem first_one : StableHlo.after hostOps0 X (Proc.devRef .tc main_cst_3) = constant (F := Ideal) S_ .f32 0x3F800000#32 := by
  after_results_simp

/-! ## The four stretches from the degree to the normaliser

Two of them are the inlined bodies of a `where`; each is read by itself, so that the transports of an inlined body's
values to and from their buffers are met one call at a time. -/

/-- The first `where`: the degree where it is positive, one elsewhere. -/
theorem where_a :
    StableHlo.after hostOps0_1 X (Proc.devRef .tc main_v16)
      = select (X (Proc.devRef .tc main_v15)) (X (Proc.devRef .tc main_v11)) (broadcastInDim S100000 ![] bcast_S_S100000 (id (X (Proc.devRef .tc main_cst_3)))) := by
  after_results_simp
  rfl
theorem where_a_keep (b : Ref sig .tc) (hb : b = main_v13 ∨ b = main_v3 ∨ b = main_v6 ∨ b = main_v8) :
    StableHlo.after hostOps0_1 X (Proc.devRef .tc b) = X (Proc.devRef .tc b) := by
  rcases hb with rfl | rfl | rfl | rfl <;> after_results_simp

/-- The reciprocal square root, and the zero the second `where` puts elsewhere. -/
theorem mid_rsqrt : StableHlo.after hostOps0_2 X (Proc.devRef .tc main_v17) = Host.rsqrt (F := Ideal) (s := S100000) (φ := .f32) (X (Proc.devRef .tc main_v16)) := by
  after_results_simp
theorem mid_zero : StableHlo.after hostOps0_2 X (Proc.devRef .tc main_cst_4) = constant (F := Ideal) S_ .f32 0x00000000#32 := by
  after_results_simp
theorem mid_keep (b : Ref sig .tc) (hb : b = main_v13 ∨ b = main_v3 ∨ b = main_v6 ∨ b = main_v8) :
    StableHlo.after hostOps0_2 X (Proc.devRef .tc b) = X (Proc.devRef .tc b) := by
  rcases hb with rfl | rfl | rfl | rfl <;> after_results_simp

/-- The second `where`: that reciprocal square root where the degree is positive, zero elsewhere. -/
theorem where_b :
    StableHlo.after hostOps0_3 X (Proc.devRef .tc main_v18)
      = select (X (Proc.devRef .tc main_v13)) (X (Proc.devRef .tc main_v17)) (broadcastInDim S100000 ![] bcast_S_S100000 (id (X (Proc.devRef .tc main_cst_4)))) := by
  after_results_simp
  rfl
theorem where_b_keep (b : Ref sig .tc) (hb : b = main_v3 ∨ b = main_v6 ∨ b = main_v8) :
    StableHlo.after hostOps0_3 X (Proc.devRef .tc b) = X (Proc.devRef .tc b) := by
  rcases hb with rfl | rfl | rfl <;> after_results_simp

/-- The three stretches together, from a degree `D` and where it is positive. -/
theorem dis_of (D : FVec Ideal S100000 .f32) (h11 : X (Proc.devRef .tc main_v11) = D)
    (h13 : X (Proc.devRef .tc main_v13) = cmpf .ogt D (broadcastInDim S100000 ![] bcast_S_S100000 (constant S_ .f32 0x00000000#32))) (h15 : X (Proc.devRef .tc main_v15) = cmpf .ogt D (broadcastInDim S100000 ![] bcast_S_S100000 (constant S_ .f32 0x00000000#32)))
    (h1 : X (Proc.devRef .tc main_cst_3) = constant (F := Ideal) S_ .f32 0x3F800000#32) :
    StableHlo.after hostOps0_3 (StableHlo.after hostOps0_2 (StableHlo.after hostOps0_1 X)) (Proc.devRef .tc main_v18)
      = select (cmpf .ogt D (broadcastInDim S100000 ![] bcast_S_S100000 (constant S_ .f32 0x00000000#32)))
          (Host.rsqrt (select (cmpf .ogt D (broadcastInDim S100000 ![] bcast_S_S100000 (constant S_ .f32 0x00000000#32))) D
            (broadcastInDim S100000 ![] bcast_S_S100000 (id (constant (F := Ideal) S_ .f32 0x3F800000#32)))))
          (broadcastInDim S100000 ![] bcast_S_S100000 (id (constant (F := Ideal) S_ .f32 0x00000000#32))) := by
  rw [where_b, mid_rsqrt, mid_zero, mid_keep _ main_v13 (.inl rfl), where_a, where_a_keep _ main_v13 (.inl rfl),
    h11, h13, h15, h1]

/-- Those three stretches write none of the edge-list buffers. -/
theorem mid3_keep (b : Ref sig .tc) (hb : b = main_v3 ∨ b = main_v6 ∨ b = main_v8) :
    StableHlo.after hostOps0_3 (StableHlo.after hostOps0_2 (StableHlo.after hostOps0_1 X)) (Proc.devRef .tc b)
      = X (Proc.devRef .tc b) := by
  rcases hb with rfl | rfl | rfl <;> after_results_simp

/-- The last stretch of the prologue: each edge's weight between the two endpoints' factors. -/
theorem last_norm (d : FVec Ideal ReferenceIdeal.S100000 .f32) (s t : IVec ReferenceIdeal.S1700000 32)
    (e : FVec Ideal ReferenceIdeal.S1700000 .f32)
    (h18 : X (Proc.devRef .tc main_v18) = d) (h3 : X (Proc.devRef .tc main_v3) = s) (h6 : X (Proc.devRef .tc main_v6) = t) (h8 : X (Proc.devRef .tc main_v8) = e) :
    StableHlo.after hostOps0_4 X (Proc.devRef .tc main_v34)
      = mulf (mulf (Host.gather ReferenceIdeal.gather_S100000_S1700000x1_S1700000_n_0_n_n_0_1_1 d (Cert.ReferenceIdeal.Chain.wrapCol s)) e)
          (Host.gather ReferenceIdeal.gather_S100000_S1700000x1_S1700000_n_0_n_n_0_1_1 d (Cert.ReferenceIdeal.Chain.wrapCol t)) := by
  after_results_simp
  rw [h18, h3, h6, h8]
  unfold Cert.ReferenceIdeal.Chain.wrapCol
  rfl

/-- The normaliser, from contents at which the first stretch's results hold the reference's terms. -/
theorem rest_norm (ei : IVec ReferenceIdeal.S2x1600000 32) (ew : FVec Ideal ReferenceIdeal.S1600000 .f32)
    (h3 : X (Proc.devRef .tc main_v3) = Cert.ReferenceIdeal.Chain.src ei) (h6 : X (Proc.devRef .tc main_v6) = Cert.ReferenceIdeal.Chain.dst ei)
    (h8 : X (Proc.devRef .tc main_v8) = Cert.ReferenceIdeal.Chain.ew1 (F := Ideal) ew) (h11 : X (Proc.devRef .tc main_v11) = Cert.ReferenceIdeal.Chain.deg (F := Ideal) ei ew)
    (h13 : X (Proc.devRef .tc main_v13) = cmpf .ogt (Cert.ReferenceIdeal.Chain.deg (F := Ideal) ei ew) (broadcastInDim S100000 ![] bcast_S_S100000 (constant S_ .f32 0x00000000#32)))
    (h15 : X (Proc.devRef .tc main_v15) = cmpf .ogt (Cert.ReferenceIdeal.Chain.deg (F := Ideal) ei ew) (broadcastInDim S100000 ![] bcast_S_S100000 (constant S_ .f32 0x00000000#32)))
    (h1 : X (Proc.devRef .tc main_cst_3) = constant (F := Ideal) S_ .f32 0x3F800000#32) :
    StableHlo.after hostOps0_4 (StableHlo.after hostOps0_3 (StableHlo.after hostOps0_2 (StableHlo.after hostOps0_1 X)))
      (Proc.devRef .tc main_v34) = Cert.ReferenceIdeal.Chain.norm (F := Ideal) ei ew := by
  refine (last_norm _ _ _ _ _ (dis_of X _ h11 h13 h15 h1) ((mid3_keep X main_v3 (.inl rfl)).trans h3)
    ((mid3_keep X main_v6 (.inr (.inl rfl))).trans h6) ((mid3_keep X main_v8 (.inr (.inr rfl))).trans h8)).trans ?_
  unfold Cert.ReferenceIdeal.Chain.norm Cert.ReferenceIdeal.Chain.dis
  rfl

/-- Those four stretches write none of the buffers the later stretches read from the first. -/
theorem rest_keep (b : Ref sig .tc)
    (hb : b = main_v3 ∨ b = main_v6 ∨ b = main_arg0 ∨ b = main_arg3 ∨ b = main_arg4 ∨ b = main_arg5 ∨ b = main_arg6) :
    StableHlo.after hostOps0_4 (StableHlo.after hostOps0_3 (StableHlo.after hostOps0_2 (StableHlo.after hostOps0_1 X)))
      (Proc.devRef .tc b) = X (Proc.devRef .tc b) := by
  rcases hb with rfl | rfl | rfl | rfl | rfl | rfl | rfl <;> after_results_simp

/-- The first stretch writes no argument array. -/
theorem first_keep (b : Ref sig .tc)
    (hb : b = main_arg0 ∨ b = main_arg1 ∨ b = main_arg2 ∨ b = main_arg3 ∨ b = main_arg4 ∨ b = main_arg5 ∨ b = main_arg6) :
    StableHlo.after hostOps0 X (Proc.devRef .tc b) = X (Proc.devRef .tc b) := by
  rcases hb with rfl | rfl | rfl | rfl | rfl | rfl | rfl <;> after_results_simp

end Stretches

/-! ## At the first region's entry, from the launch memory -/

variable (m : (ℓ : Loc nD τ sig) → Buf (Elt Ideal) ℓ) (ρ : Dev nD → PrngReg)

theorem src_eq (c : Dev nD) :
    W5 m ρ c (Proc.devRef .tc main_v3) = Cert.ReferenceIdeal.Chain.src (m ((c.tc : Thread nD τ).loc main_arg1)) :=
  (rest_keep (W1 m ρ c) main_v3 (.inl rfl)).trans (first_src (W0 m ρ c))

theorem dst_eq (c : Dev nD) :
    W5 m ρ c (Proc.devRef .tc main_v6) = Cert.ReferenceIdeal.Chain.dst (m ((c.tc : Thread nD τ).loc main_arg1)) :=
  (rest_keep (W1 m ρ c) main_v6 (.inr (.inl rfl))).trans (first_dst (W0 m ρ c))

theorem norm_eq (c : Dev nD) :
    W5 m ρ c (Proc.devRef .tc main_v34)
      = Cert.ReferenceIdeal.Chain.norm (F := Ideal) (m ((c.tc : Thread nD τ).loc main_arg1)) (m ((c.tc : Thread nD τ).loc main_arg2)) :=
  rest_norm (W1 m ρ c) _ _ (first_src (W0 m ρ c)) (first_dst (W0 m ρ c)) (first_ew (W0 m ρ c)) (first_deg (W0 m ρ c))
    (first_pos13 (W0 m ρ c)) (first_pos15 (W0 m ρ c)) (first_one (W0 m ρ c))

theorem arg0 (c : Dev nD) : W5 m ρ c (Proc.devRef .tc main_arg0) = m ((c.tc : Thread nD τ).loc main_arg0) :=
  (rest_keep (W1 m ρ c) main_arg0 (.inr (.inr (.inl rfl)))).trans (first_keep (W0 m ρ c) main_arg0 (.inl rfl))
theorem arg3 (c : Dev nD) : W5 m ρ c (Proc.devRef .tc main_arg3) = m ((c.tc : Thread nD τ).loc main_arg3) :=
  (rest_keep (W1 m ρ c) main_arg3 (.inr (.inr (.inr (.inl rfl))))).trans (first_keep (W0 m ρ c) main_arg3 (.inr (.inr (.inr (.inl rfl)))))
theorem arg4 (c : Dev nD) : W5 m ρ c (Proc.devRef .tc main_arg4) = m ((c.tc : Thread nD τ).loc main_arg4) :=
  (rest_keep (W1 m ρ c) main_arg4 (.inr (.inr (.inr (.inr (.inl rfl)))))).trans
    (first_keep (W0 m ρ c) main_arg4 (.inr (.inr (.inr (.inr (.inl rfl))))))
theorem arg5 (c : Dev nD) : W5 m ρ c (Proc.devRef .tc main_arg5) = m ((c.tc : Thread nD τ).loc main_arg5) :=
  (rest_keep (W1 m ρ c) main_arg5 (.inr (.inr (.inr (.inr (.inr (.inl rfl))))))).trans
    (first_keep (W0 m ρ c) main_arg5 (.inr (.inr (.inr (.inr (.inr (.inl rfl)))))))
theorem arg6 (c : Dev nD) : W5 m ρ c (Proc.devRef .tc main_arg6) = m ((c.tc : Thread nD τ).loc main_arg6) :=
  (rest_keep (W1 m ρ c) main_arg6 (.inr (.inr (.inr (.inr (.inr (.inr rfl))))))).trans
    (first_keep (W0 m ρ c) main_arg6 (.inr (.inr (.inr (.inr (.inr (.inr rfl)))))))

end Cert.KernelIdeal.Prologue

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.LibMatProd.lean ====
/-
  A matrix product as one function on the extended reals, and the format changes that do not change it.

  General in the extents M, K, N (and, for the gather, in the shapes): nothing here mentions a program.

  `matProd l r` is the rows × contraction by contraction × columns product read entry by entry: the entry at
  (i, j) is the sum over k of l (i, k) · r (k, j). Both printed forms of the product are this function: the host's
  `dot_general` of the whole operands, and a `tpu.matmul` of two operands rounded to a narrower float format and
  accumulated into the zero splat — on the extended reals a change of float format is the identity. A change of format
  around a row gather is the identity too: the gather only re-indexes its operand.
-/
import proofs.«149829_j77644418777510_2_alg».proof.Proof.LibDot
import Idealize.ShloMosaic.Lib.ValueIdx
import Idealize.ShloMosaic.PureOps.Ideal.Laws

noncomputable section

namespace Cert.LibMatProd

open Idealize.ShloMosaic Idealize.ShloMosaic.ValueIdx

variable {M K N : Nat}

/-- The product of an M × K and a K × N matrix of extended reals, entry by entry. -/
def matProd (l : (⟨2, ![M, K]⟩ : Shape).Idx → EReal) (r : (⟨2, ![K, N]⟩ : Shape).Idx → EReal) :
    (⟨2, ![M, N]⟩ : Shape).Idx → EReal :=
  fun y => ∑ k : Fin K, l (ix2 (y 0) k) * r (ix2 k (y 1))

/-- The host's `dot_general` contracting the left operand's second axis with the right operand's first is the
    product. -/
theorem dotGeneral_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ .f32) (r : FVec Ideal ⟨2, ![K, N]⟩ .f32) :
    Host.dotGeneral d none l r = matProd l r :=
  funext fun y => LibDot.dotGeneral_plain_apply d hlc hrc hln hrn hlb hrb none .single l r y

/-- A `tpu.matmul` of the two operands rounded to bf16, into the zero accumulator, is the product of the operands
    themselves: at an entry. -/
theorem matmul_trunc_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (hb : FTy.bits .bf16 < FTy.bits .f32)
    (l : FVec Ideal ⟨2, ![M, K]⟩ .f32) (r : FVec Ideal ⟨2, ![K, N]⟩ .f32) (y : (⟨2, ![M, N]⟩ : Shape).Idx) :
    FloatOps.matmul d none (truncf .bf16 l hb) (truncf .bf16 r hb) (constant ⟨2, ![M, N]⟩ .f32 0x00000000#32) y
      = ∑ k : Fin K, l (ix2 (y 0) k) * r (ix2 k (y 1)) :=
  LibDot.matmul_zero_plain_apply d hlc hrc hln hrn hlb hrb none (truncf .bf16 l hb) (truncf .bf16 r hb) y

variable {s si t : Shape} {w : Nat}

/-- Rounding to a narrower format, gathering rows, and widening again is the gather itself. -/
theorem extf_gather_truncf (d : GatherDims s si t) (hb : FTy.bits .bf16 < FTy.bits .f32)
    (x : FVec Ideal s .f32) (idx : IVec si w) :
    extf .f32 (Host.gather d (truncf .bf16 x hb) idx) hb = Host.gather d x idx :=
  funext fun _ => rfl

end Cert.LibMatProd

end
-- ==== Proof.Region0.lean ====
/-
  Region 0: what the row-tiled matrix product leaves in its result array.

  The grid's ten points each take rows 10000·t … 10000·t + 9999 of the left operand and the whole right operand, and
  write back the same rows of the result. An entry of the block a point writes is the sum over the contraction
  coordinate of the block's row against the right operand's column; the block's row p is the array's row
  10000·t + p, so what the point writes is its block of the whole product. The ten blocks tile the result array
  (row r lies in block r / 10000), so after the region the array is the product — whatever the operands held when
  the region was entered.
-/
import proofs.«149829_j77644418777510_2_alg».proof.Proof.Gen.KernelIdeal.Frame
import proofs.«149829_j77644418777510_2_alg».proof.Proof.LibMatProd
import Idealize.ShloMosaic.Lib.Pipeline.Value
import Idealize.ShloMosaic.Lib.ValueIdx

set_option maxRecDepth 16384

noncomputable section

namespace Cert.KernelIdeal.Rows0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- An entry of the body's stored value: the block's row against the right operand's column. -/
theorem pay_apply (x0 : Vec Ideal S10000x128 .f32) (x1 : Vec Ideal S128x128 .f32) (j : S10000x128.Idx) :
    k0_pay1 x0 x1 j = ∑ k : Fin 128, x0 (ix2 (j 0) k) * x1 (ix2 k (j 1)) := by
  unfold k0_pay1
  exact LibMatProd.matmul_trunc_apply dot_S10000x128_S128x128_S10000x128_1_0_0_1_n_n rfl rfl rfl rfl rfl rfl _ _ _ j

/-- The printed index maps over the grid: the left operand's and the result's block index is the point along the
    rows and zero along the columns; the right operand's block is always the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the left operand's block at point t is row 10000·t + p of the array. -/
theorem lhs_apply (c : Dev nD) (t : Fin cfg0.N) (p : Fin 10000) (k : Fin 128) (i : S100000x128.Idx)
    (hi0 : (i 0).val = 10000 * t.val + p.val) (hi1 : (i 1).val = k.val) :
    (iblk0 V c 0 t : Vec Ideal S10000x128 .f32) (ix2 p k) = (V c main_arg0 : S100000x128.Idx → EReal) i := by
  obtain ⟨e0, e1, -, -, -, -⟩ := idx_facts t
  unfold iblk0
  rw [View.read_apply]
  show V c main_arg0 _ = V c main_arg0 _
  refine congrArg (V c main_arg0) ?_
  funext a
  apply Fin.ext
  match a with
  | ⟨0, _⟩ => show win0_0.index t (0 : Fin 2) * 10000 + 1 * p.val = (i 0).val; rw [e0, hi0]; omega
  | ⟨1, _⟩ => show win0_0.index t (1 : Fin 2) * 128 + 1 * k.val = (i 1).val; rw [e1, hi1]; omega

/-- The right operand's block at every point is the array. -/
theorem rhs_apply (c : Dev nD) (t : Fin cfg0.N) (k : Fin 128) (q : Fin 128) (i : S128x128.Idx)
    (hi0 : (i 0).val = k.val) (hi1 : (i 1).val = q.val) :
    (iblk0 V c 1 t : Vec Ideal S128x128 .f32) (ix2 k q) = (V c main_arg3 : S128x128.Idx → EReal) i := by
  obtain ⟨-, -, e2, e3, -, -⟩ := idx_facts t
  unfold iblk0
  rw [View.read_apply]
  show V c main_arg3 _ = V c main_arg3 _
  refine congrArg (V c main_arg3) ?_
  funext a
  apply Fin.ext
  match a with
  | ⟨0, _⟩ => show win0_1.index t (0 : Fin 2) * 128 + 1 * k.val = (i 0).val; rw [e2, hi0]; omega
  | ⟨1, _⟩ => show win0_1.index t (1 : Fin 2) * 128 + 1 * q.val = (i 1).val; rw [e3, hi1]; omega

/-- What point t writes back is its block of the product of the two arrays as the region finds them. -/
theorem flushed_eq (c : Dev nD) (t : Fin cfg0.N) :
    (dat0 V c).flushed 2 t
      = ((cfg0.win 2).blk t).view.read (Elt Ideal) (LibMatProd.matProd (V c main_arg0) (V c main_arg3)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨-, -, -, -, e4, e5⟩ := idx_facts t
  funext j
  show k0_pay1 (iblk0 V c 0 t) (iblk0 V c 1 t) j
    = LibMatProd.matProd (V c main_arg0) (V c main_arg3) (((cfg0.win 2).blk t).view.emb j)
  refine (pay_apply (iblk0 V c 0 t) (iblk0 V c 1 t) j).trans ?_
  unfold LibMatProd.matProd
  refine Finset.sum_congr rfl fun k _ => ?_
  have hr0 : ((((cfg0.win 2).blk t).view.emb j) 0).val = 10000 * t.val + (j 0).val := by
    show win0_2.index t (0 : Fin 2) * 10000 + 1 * (j 0).val = _
    rw [e4]; omega
  have hr1 : ((((cfg0.win 2).blk t).view.emb j) 1).val = (j 1).val := by
    show win0_2.index t (1 : Fin 2) * 128 + 1 * (j 1).val = _
    rw [e5]; omega
  rw [lhs_apply V c t (j 0) k (ix2 ((((cfg0.win 2).blk t).view.emb j) 0) k) hr0 rfl,
    rhs_apply V c t k (j 1) (ix2 k ((((cfg0.win 2).blk t).view.emb j) 1)) rfl hr1]

/-- An index of the result array is in point t's block iff each coordinate is in the block's range on its axis. -/
theorem mem_blk (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v35).slice (win0_2.rect t)).set ↔ _
  rw [View.set_slice_whole, Rect.mem_set_unit]
  exact Iff.rfl

/-- Every index of the result array is in the block of the point its row falls to. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  refine ⟨⟨(i 0).val / 10000, by rw [hN]; omega⟩, flush0_2 _, ?_⟩
  rw [mem_blk]
  obtain ⟨-, -, -, -, e4, e5⟩ := idx_facts ⟨(i 0).val / 10000, by rw [hN]; omega⟩
  intro a
  match a with
  | ⟨0, _⟩ =>
    show win0_2.index _ (0 : Fin 2) * 10000 ≤ (i 0).val ∧ (i 0).val < win0_2.index _ (0 : Fin 2) * 10000 + 10000
    rw [e4]; dsimp only; omega
  | ⟨1, _⟩ =>
    show win0_2.index _ (1 : Fin 2) * 128 ≤ (i 1).val ∧ (i 1).val < win0_2.index _ (1 : Fin 2) * 128 + 128
    rw [e5]; omega

/-- After the region the result array is the product of the two operand arrays as the region found them. -/
theorem array_eq (c : Dev nD) :
    (dat0 V c).arrAt 2 cfg0.N = LibMatProd.matProd (V c main_arg0) (V c main_arg3) :=
  (dat0 V c).arrAt_eq_of_cover 2 (LibMatProd.matProd (V c main_arg0) (V c main_arg3)) (fun t _ => flushed_eq V c t) cover

end Cert.KernelIdeal.Rows0

end
-- ==== Proof.Region1.lean ====
/-
  Region 1: what the row-tiled matrix product leaves in its result array.

  The grid's ten points each take rows 10000·t … 10000·t + 9999 of the left operand and the whole right operand, and
  write back the same rows of the result. An entry of the block a point writes is the sum over the contraction
  coordinate of the block's row against the right operand's column; the block's row p is the array's row
  10000·t + p, so what the point writes is its block of the whole product. The ten blocks tile the result array
  (row r lies in block r / 10000), so after the region the array is the product — whatever the operands held when
  the region was entered.
-/
import proofs.«149829_j77644418777510_2_alg».proof.Proof.Gen.KernelIdeal.Frame
import proofs.«149829_j77644418777510_2_alg».proof.Proof.LibMatProd
import Idealize.ShloMosaic.Lib.Pipeline.Value
import Idealize.ShloMosaic.Lib.ValueIdx

set_option maxRecDepth 16384

noncomputable section

namespace Cert.KernelIdeal.Rows1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- An entry of the body's stored value: the block's row against the right operand's column. -/
theorem pay_apply (x0 : Vec Ideal S10000x128 .f32) (x1 : Vec Ideal S128x64 .f32) (j : S10000x64.Idx) :
    k1_pay1 x0 x1 j = ∑ k : Fin 128, x0 (ix2 (j 0) k) * x1 (ix2 k (j 1)) := by
  unfold k1_pay1
  simp only [shapeCast_self]
  exact LibMatProd.matmul_trunc_apply dot_S10000x128_S128x64_S10000x64_1_0_0_1_n_n rfl rfl rfl rfl rfl rfl _ _ _ j

/-- The printed index maps over the grid: the left operand's and the result's block index is the point along the
    rows and zero along the columns; the right operand's block is always the whole array. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of the left operand's block at point t is row 10000·t + p of the array. -/
theorem lhs_apply (c : Dev nD) (t : Fin cfg1.N) (p : Fin 10000) (k : Fin 128) (i : S100000x128.Idx)
    (hi0 : (i 0).val = 10000 * t.val + p.val) (hi1 : (i 1).val = k.val) :
    (iblk1 V c 0 t : Vec Ideal S10000x128 .f32) (ix2 p k) = (V c main_v54 : S100000x128.Idx → EReal) i := by
  obtain ⟨e0, e1, -, -, -, -⟩ := idx_facts t
  unfold iblk1
  rw [View.read_apply]
  show V c main_v54 _ = V c main_v54 _
  refine congrArg (V c main_v54) ?_
  funext a
  apply Fin.ext
  match a with
  | ⟨0, _⟩ => show win1_0.index t (0 : Fin 2) * 10000 + 1 * p.val = (i 0).val; rw [e0, hi0]; omega
  | ⟨1, _⟩ => show win1_0.index t (1 : Fin 2) * 128 + 1 * k.val = (i 1).val; rw [e1, hi1]; omega

/-- The right operand's block at every point is the array. -/
theorem rhs_apply (c : Dev nD) (t : Fin cfg1.N) (k : Fin 128) (q : Fin 64) (i : S128x64.Idx)
    (hi0 : (i 0).val = k.val) (hi1 : (i 1).val = q.val) :
    (iblk1 V c 1 t : Vec Ideal S128x64 .f32) (ix2 k q) = (V c main_arg5 : S128x64.Idx → EReal) i := by
  obtain ⟨-, -, e2, e3, -, -⟩ := idx_facts t
  unfold iblk1
  rw [View.read_apply]
  show V c main_arg5 _ = V c main_arg5 _
  refine congrArg (V c main_arg5) ?_
  funext a
  apply Fin.ext
  match a with
  | ⟨0, _⟩ => show win1_1.index t (0 : Fin 2) * 128 + 1 * k.val = (i 0).val; rw [e2, hi0]; omega
  | ⟨1, _⟩ => show win1_1.index t (1 : Fin 2) * 64 + 1 * q.val = (i 1).val; rw [e3, hi1]; omega

/-- What point t writes back is its block of the product of the two arrays as the region finds them. -/
theorem flushed_eq (c : Dev nD) (t : Fin cfg1.N) :
    (dat1 V c).flushed 2 t
      = ((cfg1.win 2).blk t).view.read (Elt Ideal) (LibMatProd.matProd (V c main_v54) (V c main_arg5)) := by
  show (cfg1.win 2).cut (grid1.coords t) ((dat1 V c).after 2 t) = _
  rw [after1_2]
  unfold out1_2
  rw [View.canon_unit_zero hz]
  simp only [View.ld_unit_zero (S := S10000x128) hz, View.ld_unit_zero (S := S128x64) hz]
  obtain ⟨-, -, -, -, e4, e5⟩ := idx_facts t
  funext j
  show k1_pay1 (iblk1 V c 0 t) (iblk1 V c 1 t) j
    = LibMatProd.matProd (V c main_v54) (V c main_arg5) (((cfg1.win 2).blk t).view.emb j)
  refine (pay_apply (iblk1 V c 0 t) (iblk1 V c 1 t) j).trans ?_
  unfold LibMatProd.matProd
  refine Finset.sum_congr rfl fun k _ => ?_
  have hr0 : ((((cfg1.win 2).blk t).view.emb j) 0).val = 10000 * t.val + (j 0).val := by
    show win1_2.index t (0 : Fin 2) * 10000 + 1 * (j 0).val = _
    rw [e4]; omega
  have hr1 : ((((cfg1.win 2).blk t).view.emb j) 1).val = (j 1).val := by
    show win1_2.index t (1 : Fin 2) * 64 + 1 * (j 1).val = _
    rw [e5]; omega
  rw [lhs_apply V c t (j 0) k (ix2 ((((cfg1.win 2).blk t).view.emb j) 0) k) hr0 rfl,
    rhs_apply V c t k (j 1) (ix2 k ((((cfg1.win 2).blk t).view.emb j) 1)) rfl hr1]

/-- An index of the result array is in point t's block iff each coordinate is in the block's range on its axis. -/
theorem mem_blk (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v55).slice (win1_2.rect t)).set ↔ _
  rw [View.set_slice_whole, Rect.mem_set_unit]
  exact Iff.rfl

/-- Every index of the result array is in the block of the point its row falls to. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  refine ⟨⟨(i 0).val / 10000, by rw [hN]; omega⟩, flush1_2 _, ?_⟩
  rw [mem_blk]
  obtain ⟨-, -, -, -, e4, e5⟩ := idx_facts ⟨(i 0).val / 10000, by rw [hN]; omega⟩
  intro a
  match a with
  | ⟨0, _⟩ =>
    show win1_2.index _ (0 : Fin 2) * 10000 ≤ (i 0).val ∧ (i 0).val < win1_2.index _ (0 : Fin 2) * 10000 + 10000
    rw [e4]; dsimp only; omega
  | ⟨1, _⟩ =>
    show win1_2.index _ (1 : Fin 2) * 64 ≤ (i 1).val ∧ (i 1).val < win1_2.index _ (1 : Fin 2) * 64 + 64
    rw [e5]; omega

/-- After the region the result array is the product of the two operand arrays as the region found them. -/
theorem array_eq (c : Dev nD) :
    (dat1 V c).arrAt 2 cfg1.N = LibMatProd.matProd (V c main_v54) (V c main_arg5) :=
  (dat1 V c).arrAt_eq_of_cover 2 (LibMatProd.matProd (V c main_v54) (V c main_arg5)) (fun t _ => flushed_eq V c t) cover

end Cert.KernelIdeal.Rows1

end
-- ==== Proof.Layers.lean ====
/-
  The idealized kernel's two layers, read back to the reference's terms.

  After the host prologue the program runs: the first matrix-product region; a host stretch that rounds the product to
  bf16, gathers the source rows, widens them, scales them by the edges' normaliser, adds them up per destination, adds
  the bias and rectifies; the second matrix-product region; and the same stretch again without the rectifier. On the
  extended reals the rounding and the widening are the identity and only re-index around the gather, so each stretch
  is the reference's layer of the product it is entered with; and a region's array is the product of its operand
  arrays. So the result buffer at the last boundary is the reference's second layer of the product of its first layer
  of the product of the features with the first weights, with the second weights.
-/
import proofs.«149829_j77644418777510_2_alg».proof.Proof.Prologue
import proofs.«149829_j77644418777510_2_alg».proof.Proof.Region0
import proofs.«149829_j77644418777510_2_alg».proof.Proof.Region1

set_option maxRecDepth 16384

noncomputable section

namespace Cert.KernelIdeal.Layers

open Idealize.ShloMosaic Idealize.ShloMosaic.TcCoe Idealize.SL.Sem Idealize.ShloMosaic.StableHlo
open Cert.KernelIdeal Cert.KernelIdeal.Gen

section Stretches

variable (Y : Valuation τ sig (Elt Ideal))

/-- The inlined rectifier, by itself: the maximum with the zero splat. -/
theorem relu_stretch :
    StableHlo.after hostOps1_1 Y (Proc.devRef .tc main_v54)
      = maximumf (Y (Proc.devRef .tc main_v53)) (broadcastInDim S100000x128 ![] bcast_S_S100000x128 (constant (F := Ideal) S_ .f32 0x00000000#32)) := by
  after_results_simp
  rfl
theorem relu_keep (b : Ref sig .tc)
    (hb : b = main_v3 ∨ b = main_v6 ∨ b = main_v34 ∨ b = main_arg5 ∨ b = main_arg6) :
    StableHlo.after hostOps1_1 Y (Proc.devRef .tc b) = Y (Proc.devRef .tc b) := by
  rcases hb with rfl | rfl | rfl | rfl | rfl <;> after_results_simp
theorem agg_keep (b : Ref sig .tc)
    (hb : b = main_v3 ∨ b = main_v6 ∨ b = main_v34 ∨ b = main_arg5 ∨ b = main_arg6) :
    StableHlo.after hostOps1 Y (Proc.devRef .tc b) = Y (Proc.devRef .tc b) := by
  rcases hb with rfl | rfl | rfl | rfl | rfl <;> after_results_simp

/-- The stretch between the regions is the reference's first layer of the product it finds. -/
theorem layer1_stretch (h : FVec Ideal ReferenceIdeal.S100000x128 .f32) (ei : IVec ReferenceIdeal.S2x1600000 32)
    (ew : FVec Ideal ReferenceIdeal.S1600000 .f32) (b1 : FVec Ideal ReferenceIdeal.S128 .f32)
    (h35 : Y (Proc.devRef .tc main_v35) = h) (h3 : Y (Proc.devRef .tc main_v3) = Cert.ReferenceIdeal.Chain.src ei) (h6 : Y (Proc.devRef .tc main_v6) = Cert.ReferenceIdeal.Chain.dst ei)
    (h34 : Y (Proc.devRef .tc main_v34) = Cert.ReferenceIdeal.Chain.norm (F := Ideal) ei ew) (h4 : Y (Proc.devRef .tc main_arg4) = b1) :
    StableHlo.after hostOps1_1 (StableHlo.after hostOps1 Y) (Proc.devRef .tc main_v54) = Cert.ReferenceIdeal.Chain.layer1 (F := Ideal) h ei ew b1 := by
  rw [relu_stretch]
  after_results_simp
  rw [h35, h3, h6, h34, h4, LibMatProd.extf_gather_truncf]
  unfold Cert.ReferenceIdeal.Chain.layer1 Cert.ReferenceIdeal.Chain.wrapCol
  rfl

/-- That stretch writes none of the buffers the last stretch and the second region read from before it. -/
theorem layer1_keep (b : Ref sig .tc)
    (hb : b = main_v3 ∨ b = main_v6 ∨ b = main_v34 ∨ b = main_arg5 ∨ b = main_arg6) :
    StableHlo.after hostOps1_1 (StableHlo.after hostOps1 Y) (Proc.devRef .tc b) = Y (Proc.devRef .tc b) :=
  (relu_keep _ b hb).trans (agg_keep Y b hb)

/-- The last stretch is the reference's second layer of the product it finds. -/
theorem layer2_stretch (h : FVec Ideal ReferenceIdeal.S100000x64 .f32) (ei : IVec ReferenceIdeal.S2x1600000 32)
    (ew : FVec Ideal ReferenceIdeal.S1600000 .f32) (b2 : FVec Ideal ReferenceIdeal.S64 .f32)
    (h55 : Y (Proc.devRef .tc main_v55) = h) (h3 : Y (Proc.devRef .tc main_v3) = Cert.ReferenceIdeal.Chain.src ei) (h6 : Y (Proc.devRef .tc main_v6) = Cert.ReferenceIdeal.Chain.dst ei)
    (h34 : Y (Proc.devRef .tc main_v34) = Cert.ReferenceIdeal.Chain.norm (F := Ideal) ei ew) (hb : Y (Proc.devRef .tc main_arg6) = b2) :
    StableHlo.after hostOps2 Y (Proc.devRef .tc main_v73) = Cert.ReferenceIdeal.Chain.layer2 (F := Ideal) h ei ew b2 := by
  after_results_simp
  rw [h55, h3, h6, h34, hb, LibMatProd.extf_gather_truncf]
  unfold Cert.ReferenceIdeal.Chain.layer2 Cert.ReferenceIdeal.Chain.wrapCol
  rfl

end Stretches

variable (m : (ℓ : Loc nD τ sig) → Buf (Elt Ideal) ℓ) (ρ : Dev nD → PrngReg)

/-- The first region's result array is the product of the features with the first weights. -/
theorem h0_eq (c : Dev nD) :
    W6 m ρ c (Proc.devRef .tc main_v35)
      = LibMatProd.matProd (m ((c.tc : Thread nD τ).loc main_arg0)) (m ((c.tc : Thread nD τ).loc main_arg3)) := by
  refine (W6_arr m ρ c 2).trans ?_
  refine (Rows0.array_eq (V5 m ρ) c).trans ?_
  show LibMatProd.matProd (W5 m ρ c (Proc.devRef .tc main_arg0)) (W5 m ρ c (Proc.devRef .tc main_arg3)) = _
  rw [Prologue.arg0, Prologue.arg3]

/-- The first layer's output, at the second region's entry. -/
theorem h1_eq (c : Dev nD) :
    W8 m ρ c (Proc.devRef .tc main_v54)
      = Cert.ReferenceIdeal.Chain.layer1 (F := Ideal)
          (LibMatProd.matProd (m ((c.tc : Thread nD τ).loc main_arg0)) (m ((c.tc : Thread nD τ).loc main_arg3)))
          (m ((c.tc : Thread nD τ).loc main_arg1)) (m ((c.tc : Thread nD τ).loc main_arg2)) (m ((c.tc : Thread nD τ).loc main_arg4)) :=
  layer1_stretch (W6 m ρ c) _ _ _ _ (h0_eq m ρ c)
    ((W6_of_ne m ρ c main_v3 (by decide)).trans (Prologue.src_eq m ρ c))
    ((W6_of_ne m ρ c main_v6 (by decide)).trans (Prologue.dst_eq m ρ c))
    ((W6_of_ne m ρ c main_v34 (by decide)).trans (Prologue.norm_eq m ρ c))
    ((W6_of_ne m ρ c main_arg4 (by decide)).trans (Prologue.arg4 m ρ c))

/-- The second region's result array is the product of the first layer's output with the second weights. -/
theorem h2_eq (c : Dev nD) :
    W9 m ρ c (Proc.devRef .tc main_v55)
      = LibMatProd.matProd
          (Cert.ReferenceIdeal.Chain.layer1 (F := Ideal)
            (LibMatProd.matProd (m ((c.tc : Thread nD τ).loc main_arg0)) (m ((c.tc : Thread nD τ).loc main_arg3)))
            (m ((c.tc : Thread nD τ).loc main_arg1)) (m ((c.tc : Thread nD τ).loc main_arg2)) (m ((c.tc : Thread nD τ).loc main_arg4)))
          (m ((c.tc : Thread nD τ).loc main_arg5)) := by
  refine (W9_arr m ρ c 2).trans ?_
  refine (Rows1.array_eq (V8 m ρ) c).trans ?_
  show LibMatProd.matProd (W8 m ρ c (Proc.devRef .tc main_v54)) (W8 m ρ c (Proc.devRef .tc main_arg5)) = _
  have e5 : W8 m ρ c (Proc.devRef .tc main_arg5) = m ((c.tc : Thread nD τ).loc main_arg5) :=
    (layer1_keep (W6 m ρ c) main_arg5 (.inr (.inr (.inr (.inl rfl))))).trans
      ((W6_of_ne m ρ c main_arg5 (by decide)).trans (Prologue.arg5 m ρ c))
  rw [h1_eq m ρ c, e5]

/-- A buffer the regions and the middle stretch leave alone holds at the last stretch's entry what it held at the
    first region's. -/
theorem late_keep (c : Dev nD) (b : Ref sig .tc)
    (hb : b = main_v3 ∨ b = main_v6 ∨ b = main_v34 ∨ b = main_arg5 ∨ b = main_arg6)
    (h1 : ∀ w, Pipeline.arrRef spec1 w ≠ b) (h0 : ∀ w, Pipeline.arrRef spec0 w ≠ b) :
    W9 m ρ c (Proc.devRef .tc b) = W5 m ρ c (Proc.devRef .tc b) :=
  (W9_of_ne m ρ c b h1).trans ((layer1_keep (W6 m ρ c) b hb).trans (W6_of_ne m ρ c b h0))

/-- THE RESULT at the last boundary: the reference's two layers over the two products. -/
theorem result_eq (c : Dev nD) :
    W10 m ρ c (Proc.devRef .tc main_v73)
      = Cert.ReferenceIdeal.Chain.layer2 (F := Ideal)
          (LibMatProd.matProd
            (Cert.ReferenceIdeal.Chain.layer1 (F := Ideal)
              (LibMatProd.matProd (m ((c.tc : Thread nD τ).loc main_arg0)) (m ((c.tc : Thread nD τ).loc main_arg3)))
              (m ((c.tc : Thread nD τ).loc main_arg1)) (m ((c.tc : Thread nD τ).loc main_arg2)) (m ((c.tc : Thread nD τ).loc main_arg4)))
            (m ((c.tc : Thread nD τ).loc main_arg5)))
          (m ((c.tc : Thread nD τ).loc main_arg1)) (m ((c.tc : Thread nD τ).loc main_arg2)) (m ((c.tc : Thread nD τ).loc main_arg6)) :=
  layer2_stretch (W9 m ρ c) _ _ _ _ (h2_eq m ρ c)
    ((late_keep m ρ c main_v3 (.inl rfl) (by decide) (by decide)).trans (Prologue.src_eq m ρ c))
    ((late_keep m ρ c main_v6 (.inr (.inl rfl)) (by decide) (by decide)).trans (Prologue.dst_eq m ρ c))
    ((late_keep m ρ c main_v34 (.inr (.inr (.inl rfl))) (by decide) (by decide)).trans (Prologue.norm_eq m ρ c))
    ((late_keep m ρ c main_arg6 (.inr (.inr (.inr (.inr rfl)))) (by decide) (by decide)).trans (Prologue.arg6 m ρ c))

end Cert.KernelIdeal.Layers

end
-- ==== Proof.lean ====
/-
  Two graph-convolution layers: a kernel whose dense products run as row-tiled matrix-product regions, against the plain
  reference, on the extended reals.

  Both programs build the same edge list with self loops, the same weighted degree and the same symmetric normaliser,
  and both apply, after each dense product, the same gather of source rows, scaling, sum per destination node and bias
  (and the rectifier after the first). They differ in three ways, none of which is a difference on the extended reals:
  the kernel computes each dense product ten row blocks at a time with both operands rounded to bf16 — a change of
  float format is the identity, and the blocks tile the result, so the region's array is the whole product; it rounds
  the product to bf16 before gathering and widens after — the identity around a re-indexing; and it computes the
  normaliser once where the reference recomputes the same term. So both results are one term: the second layer of the
  product of the first layer of the product of the features with the first weights, with the second weights. No law of
  arithmetic is used beyond re-indexing the product's sum, and the inputs' finiteness is never needed.

  The three frames are the generated ones (the reference's is its run with the result dropped); the ideal pass rewrote
  nothing, so there is nothing to preserve.
-/
import proofs.«149829_j77644418777510_2_alg».proof.Defs
import proofs.«149829_j77644418777510_2_alg».proof.Proof.Gen.Kernel
import proofs.«149829_j77644418777510_2_alg».proof.Proof.Gen.Kernel.Frame
import proofs.«149829_j77644418777510_2_alg».proof.Proof.Gen.KernelIdeal
import proofs.«149829_j77644418777510_2_alg».proof.Proof.Gen.KernelIdeal.Frame
import proofs.«149829_j77644418777510_2_alg».proof.Proof.Gen.ReferenceIdeal
import proofs.«149829_j77644418777510_2_alg».proof.Proof.Gen.Pre_finite_inputs
import proofs.«149829_j77644418777510_2_alg».proof.Proof.Gen.ReferenceIdeal.Run
import proofs.«149829_j77644418777510_2_alg».proof.Proof.KernelRun
import proofs.«149829_j77644418777510_2_alg».proof.Proof.Layers
import proofs.«149829_j77644418777510_2_alg».proof.Proof.Chain
import proofs.«149829_j77644418777510_2_alg».proof.Proof.LibMatProd

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result array ends at the fold of its stretches and regions over the launch memory, which is the
    reference's two layers over the two products as plain sums; the reference's ends at the same two layers over its
    two `dot_general`s, each of which is that sum. -/
theorem algebraic : Cert.algebraic_KernelIdeal_ReferenceIdeal := by
  intro m ρ m' ρ' _ hagree
  refine ⟨fun c => Cert.KernelIdeal.Gen.W10 m ρ c (Proc.devRef .tc Cert.KernelIdeal.main_v73),
    Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  show Cert.ReferenceIdeal.Value.res_main_v95 m' c
    = Cert.KernelIdeal.Gen.W10 m ρ c (Proc.devRef .tc Cert.KernelIdeal.main_v73)
  rw [Cert.ReferenceIdeal.Chain.res_eq, Cert.KernelIdeal.Layers.result_eq m ρ c, a0, a1, a2, a3, a4, a5, a6,
    Cert.LibMatProd.dotGeneral_eq Cert.ReferenceIdeal.dot_S100000x128_S128x128_S100000x128_1_0_0_1_n_n rfl rfl rfl rfl rfl rfl,
    Cert.LibMatProd.dotGeneral_eq Cert.ReferenceIdeal.dot_S100000x128_S128x64_S100000x64_1_0_0_1_n_n rfl rfl rfl rfl rfl rfl]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
